-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S400x10000 : Shape := ⟨2, ![400, 10000]⟩
abbrev S400x128 : Shape := ⟨2, ![400, 128]⟩

abbrev nBuf : Space → Nat
  | .hbm => 5
  | .vmem => 6
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S400x10000, .f32⟩
  | .local _ .vmem, ⟨3, _⟩ => ⟨S400x10000, .f32⟩
  | .local _ .vmem, ⟨4, _⟩ => ⟨S400x128, .f32⟩
  | .local _ .vmem, ⟨5, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S128x128_S128x128_1_0 : S128x128.Transposes [1, 0] S128x128
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S400x128_S400x128_0_0 : ∀ a, (![0, 0] : Fin 2 → Nat) a + S400x128.size a ≤ S400x128.size a
  h_S400x128 : 0 < S400x128.numel
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x10000.size a ≤ S10000x10000.size a
  hwx0_2 : ∀ i : grid0.Coords, EltTy.bits .f32 = 32 ∨ (Rect.block (s := S10000x10000) S400x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .f32 = 32 ∨ (Rect.block (s := S10000x128) S400x128.size (cc0_transform_3 i) (hinb0_3 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S400x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S400x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S10000x128, .f32⟩
  | .hbm, ⟨5, _⟩ => ⟨S10000x128, .f32⟩
  | .hbm, ⟨6, _⟩ => ⟨S_, .f32⟩
  | .hbm, ⟨7, _⟩ => ⟨S10000x128, .f32⟩
  | .hbm, ⟨8, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩

abbrev nD : Nat := 1
abbrev τ : Topo := Topo.v7x

variable {F : FTy → Type} [FloatOps F]

class Facts₀ : Prop where
  transposes_S128x128_S128x128_1_0 : S128x128.Transposes [1, 0] S128x128
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.LibCoeSum.lean ====
/-
  A finite sum of reals, coerced into the extended reals, is the sum of the coercions.
-/
import Mathlib.Data.EReal.Basic
import Mathlib.Algebra.BigOperators.Group.Finset.Basic

namespace Cert.Lib.CoeSum

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.Lib.CoeSum
-- ==== Proof.LibProductAssoc.lean ====
/-
  A row vector times a matrix times a column vector, bracketed either way.

  Over the reals Σ_k (Σ_l a(l) · x(l,k)) · w(k) and Σ_l a(l) · (Σ_k x(l,k) · w(k)) are the same double sum
  Σ_l Σ_k a(l) · x(l,k) · w(k): distribute each product over the inner sum and exchange the two summations. This is one
  entry of the associativity of a product of three matrices, (A · X) · B = A · (X · B), with a = row r of A and
  w = column q of B. On the extended reals distributivity fails at the infinities (∞ · (1 + (−1)) against
  ∞ · 1 + ∞ · (−1)), so the law is stated there for entries that are real numbers: every partial sum and product is then
  the coercion of a real one and the real identity transports. Any finite index types.
-/
import Mathlib.Data.EReal.Basic
import Mathlib.Algebra.BigOperators.Ring.Finset
import Mathlib.Algebra.BigOperators.Group.Finset.Sigma
import proofs.«109619_g25640954757420_cont_8to1_317_13_alg».proof.Proof.LibCoeSum

namespace Cert.Lib.ProductAssoc

open scoped BigOperators

/-- Over the reals, a row vector times a matrix times a column vector is one double sum, bracketed either way. -/
theorem sum_assoc_real {ι κ : Type*} [Fintype ι] [Fintype κ] (a : ι → ℝ) (x : ι → κ → ℝ) (w : κ → ℝ) :
    ∑ k, (∑ l, a l * x l k) * w k = ∑ l, a l * ∑ k, x l k * w k := by
  simp only [Finset.sum_mul, Finset.mul_sum]
  rw [Finset.sum_comm]
  exact Finset.sum_congr rfl fun l _ => Finset.sum_congr rfl fun k _ => mul_assoc _ _ _

/-- The same on the extended reals, for entries that are real numbers: each side is the coercion of the real side. -/
theorem sum_assoc_ereal {ι κ : Type*} [Fintype ι] [Fintype κ] (A : ι → EReal) (X : ι → κ → EReal) (W : κ → EReal)
    (hA : ∀ l, ∃ r : ℝ, A l = (r : EReal)) (hX : ∀ l k, ∃ r : ℝ, X l k = (r : EReal)) (hW : ∀ k, ∃ r : ℝ, W k = (r : EReal)) :
    ∑ k, (∑ l, A l * X l k) * W k = ∑ l, A l * ∑ k, X l k * W k := by
  choose a ha using hA
  choose x hx using hX
  choose w hw using hW
  have lhs : ∑ k, (∑ l, A l * X l k) * W k = ((∑ k, (∑ l, a l * x l k) * w k : ℝ) : EReal) := by
    rw [Cert.Lib.CoeSum.coe_sum]
    refine Finset.sum_congr rfl fun k _ => ?_
    rw [EReal.coe_mul, Cert.Lib.CoeSum.coe_sum, hw]
    refine congrArg (· * (w k : EReal)) (Finset.sum_congr rfl fun l _ => ?_)
    rw [EReal.coe_mul, ha, hx]
  have rhs : ∑ l, A l * ∑ k, X l k * W k = ((∑ l, a l * ∑ k, x l k * w k : ℝ) : EReal) := by
    rw [Cert.Lib.CoeSum.coe_sum]
    refine Finset.sum_congr rfl fun l _ => ?_
    rw [EReal.coe_mul, Cert.Lib.CoeSum.coe_sum, ha]
    refine congrArg ((a l : EReal) * ·) (Finset.sum_congr rfl fun k _ => ?_)
    rw [EReal.coe_mul, hx, hw]
  rw [lhs, rhs, sum_assoc_real]

end Cert.Lib.ProductAssoc
-- ==== Proof.GcnLayer.lean ====
/-
  One dense graph-convolution layer, entry by entry, on the extended reals.

  With features X (10000 × 128), a dense adjacency A (10000 × 10000) and a weight matrix W (128 × 128, one row per
  output feature), the layer is relu(A · X · Wᵀ). The product of three matrices can be bracketed two ways:

    aggregate first:  entry (r, q) = max(Σ_k (Σ_l A(r,l) · X(l,k)) · W(q,k), 0)
    project first:    entry (r, q) = max(Σ_l A(r,l) · (Σ_k X(l,k) · W(q,k)), 0)

  Over the reals the two inner expressions are the same double sum Σ_l Σ_k A(r,l) · X(l,k) · W(q,k), by distributing
  each product over the inner sum and exchanging the two summations. On the extended reals distributivity fails at the
  infinities (∞ · (1 + (−1)) against ∞ · 1 + ∞ · (−1)), so the law is stated for entries that are real numbers: then
  every partial sum and product is the coercion of a real one and the real identity transports (the law itself is in
  LibProductAssoc, over any finite index types).
-/
import Idealize.ShloMosaic.PureOps.Ideal
import Idealize.ShloMosaic.Lib.ValueIdx
import proofs.«109619_g25640954757420_cont_8to1_317_13_alg».proof.Proof.LibProductAssoc

noncomputable section

namespace Cert.GcnLayer

open Idealize.ShloMosaic Idealize.ShloMosaic.ValueIdx
open scoped BigOperators

/-- The feature matrix's shape, 10000 nodes by 128 features; also the result's. -/
abbrev SX : Shape := ⟨2, ![10000, 128]⟩
/-- The adjacency matrix's shape. -/
abbrev SA : Shape := ⟨2, ![10000, 10000]⟩
/-- The weight matrix's shape: output feature by input feature. -/
abbrev SW : Shape := ⟨2, ![128, 128]⟩

/-- Entry (r, q) of the layer with the neighbourhood sum taken first: row r of A · X, then its product with row q of W,
    then the rectifier against the word of 0.0. -/
def aggFirst (X : SX.Idx → EReal) (A : SA.Idx → EReal) (W : SW.Idx → EReal) (r : Fin 10000) (q : Fin 128) : EReal :=
  max (∑ k : Fin 128, (∑ l : Fin 10000, A (ix2 r l) * X (ix2 l k)) * W (ix2 q k)) (Ideal.ofBits .f32 0x00000000#32)

/-- Entry (r, q) of the layer with the projection taken first: every node's features times row q of W, then the
    neighbourhood sum over row r of A, then the same rectifier. -/
def projFirst (X : SX.Idx → EReal) (A : SA.Idx → EReal) (W : SW.Idx → EReal) (r : Fin 10000) (q : Fin 128) : EReal :=
  max (∑ l : Fin 10000, A (ix2 r l) * ∑ k : Fin 128, X (ix2 l k) * W (ix2 q k)) (Ideal.ofBits .f32 0x00000000#32)

/-- The layer as one array: entry i is `aggFirst` at i's two coordinates. -/
def layer (X : SX.Idx → EReal) (A : SA.Idx → EReal) (W : SW.Idx → EReal) : SX.Idx → EReal :=
  fun i => aggFirst X A W (i 0) (i 1)

/-- For real entries the two bracketings of the layer agree at every entry. -/
theorem aggFirst_eq_projFirst (X : SX.Idx → EReal) (A : SA.Idx → EReal) (W : SW.Idx → EReal)
    (hX : ∀ i, ∃ r : ℝ, X i = (r : EReal)) (hA : ∀ i, ∃ r : ℝ, A i = (r : EReal)) (hW : ∀ i, ∃ r : ℝ, W i = (r : EReal))
    (r : Fin 10000) (q : Fin 128) : aggFirst X A W r q = projFirst X A W r q := by
  unfold aggFirst projFirst
  rw [Cert.Lib.ProductAssoc.sum_assoc_ereal (fun l => A (ix2 r l)) (fun l k => X (ix2 l k)) (fun k => W (ix2 q k))
    (fun l => hA _) (fun l k => hX _) (fun k => hW _)]

end Cert.GcnLayer

end
-- ==== Proof.LibFiniteEntries.lean ====
/-
  One conjunct of a finiteness precondition read back. The test `jnp.all(jnp.abs(x) < inf)` of a float array x prints
  as a reduction by `and`, down to a single truth value, of the comparison of |x| with a splat of the word of +inf.
  On the extended reals |x| is max x (-x), the word 0x7F800000 is +inf, and max x (-x) < +inf says x is neither
  infinity: a real number. So where the test's value is 1, every entry of x is the coercion of a real. Any shape, any
  reduced axes, any scalar shape for the splat.
-/
import Idealize.ShloMosaic.PureOps.Ideal
import Idealize.ShloMosaic.PureOps.Ideal.Laws
import Idealize.ShloMosaic.Lib.ReduceAll

noncomputable section

namespace Cert.Lib.FiniteEntries

open Idealize.ShloMosaic

/-- An extended real whose absolute value compares below +inf is a real number. -/
theorem real_of_abs_lt_top (x : EReal) (h : Ideal.cmp .olt (max x (-x)) ⊤ = 1#1) : ∃ r : ℝ, x = (r : EReal) := by
  have hlt : max x (-x) < ⊤ := by
    by_contra hn
    simp [Ideal.cmp, hn] at h
  have h1 : x ≠ ⊤ := fun e => by rw [e] at hlt; simp at hlt
  have h2 : x ≠ ⊥ := fun e => by rw [e] at hlt; simp at hlt
  exact ⟨x.toReal, (EReal.coe_toReal h1 h2).symm⟩

/-- The word of +inf in binary32 denotes the top element. -/
theorem ofBits_inf : Ideal.ofBits .f32 0x7F800000#32 = ⊤ := by simp [Ideal.ofBits, Ideal.ieee]

/-- Where `all(|x| < inf)` is 1, every entry of x is real. -/
theorem real_of_all {s z t u : Shape} {axes : List (Fin s.rank)} [Subsingleton t.Idx] (x : FVec Ideal s .f32)
    (dims : Fin z.rank → Fin s.rank) (hb : z.BroadcastsInDim s dims) (init : u.Idx → BitVec 1) (h : s.ReducesTo axes t)
    (hu : 0 < u.numel) (j : t.Idx)
    (e : Host.reduce IntOp.andi
      (cmpf (F := Ideal) .olt (Host.absf x) (broadcastInDim s dims hb (constant (F := Ideal) z .f32 0x7F800000#32))) init h hu j = 1#1)
    (i : s.Idx) : ∃ r : ℝ, x i = (r : EReal) := by
  have hi := Host.reduce_andi_all _ init h hu j e i
  refine real_of_abs_lt_top (x i) ?_
  rw [← ofBits_inf]
  exact hi

end Cert.Lib.FiniteEntries

end
-- ==== Proof.RealInputs.lean ====
/-
  The precondition read back: where the test "every input is finite" holds, every entry of the three argument arrays is
  a real number.

  The test is the conjunction of three tests all(|x| < inf), one per argument, each a reduction by `and` to a single truth
  value. The conjunction is 1 exactly when each conjunct is; and each conjunct being 1 says every entry's absolute value
  is below +inf, that is, the entry is neither infinity.
-/
import proofs.«109619_g25640954757420_cont_8to1_317_13_alg».proof.Pre_finite_inputs
import proofs.«109619_g25640954757420_cont_8to1_317_13_alg».proof.Proof.LibFiniteEntries
import Idealize.ShloMosaic.Lib.ValueIdx

noncomputable section

namespace Cert.RealInputs

open Idealize.ShloMosaic Cert.Pre_finite_inputs

/-- The scalar shape has one index. -/
instance : Subsingleton S_.Idx := ⟨fun a b => funext fun d => d.elim0⟩

/-- Under the finiteness test every entry of the features, of the adjacency and of the weights is a real number. -/
theorem real_of_pre [Cert.Pre_finite_inputs.Facts] (x0 : FVec Ideal S10000x128 .f32) (x1 : FVec Ideal S10000x10000 .f32)
    (x2 : FVec Ideal S128x128 .f32) (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [Cert.Pre_finite_inputs.fn] at h0
  obtain ⟨h01, h2⟩ := IntOp.andi_eq_one.mp h0
  obtain ⟨ha, hb⟩ := IntOp.andi_eq_one.mp h01
  exact ⟨Cert.Lib.FiniteEntries.real_of_all x0 _ _ _ _ _ _ ha,
    Cert.Lib.FiniteEntries.real_of_all x1 _ _ _ _ _ _ hb,
    Cert.Lib.FiniteEntries.real_of_all x2 _ _ _ _ _ _ h2⟩

end Cert.RealInputs

end
-- ==== Proof.LibPlainProduct.lean ====
/-
  A plain matrix product read at an entry. Dimension numbers that contract the left operand's second axis with the
  right operand's first, with no batch axis — M×K by K×N — make both the device's matrix unit accumulating into zero
  and the host's general contraction, on the extended reals, the textbook sum: entry (i, j) of the product is the sum
  over k < K of A(i, k) · B(k, j). Nothing else is left of either operation there: no accumulator, no rounding, no
  order of summation. The statements hold for ANY record with those dimension numbers, whatever its name and extents.
-/
import Idealize.ShloMosaic.PureOps.Ideal.Laws
import Idealize.ShloMosaic.Lib.ValueIdx

noncomputable section

namespace Cert.Lib.PlainProduct

open Idealize.ShloMosaic Idealize.ShloMosaic.ValueIdx
open scoped BigOperators

variable {M K N : ℕ} (d : DotDims ⟨2, ![M, K]⟩ ⟨2, ![K, N]⟩ ⟨2, ![M, N]⟩)

/-- The dimension numbers of a plain product: the left operand's axis 1 is contracted with the right operand's axis 0;
    the left operand's axis 0 and the right operand's axis 1 are kept, in this order; there is no batch axis. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The left operand's row coordinate is the result's row coordinate. -/
theorem lhsIdx_row (h : IsPlain d) (j : (⟨2, ![M, N]⟩ : Shape).Idx) (q : d.contr.Idx) :
    (d.lhsIdx j q 0).val = (j 0).val := by
  unfold DotDims.lhsIdx
  rw [dif_neg (show ¬ (0 : Fin (⟨2, ![M, K]⟩ : Shape).rank) ∈ d.lhsBatch by rw [h.lb]; simp),
    dif_pos (show (0 : Fin (⟨2, ![M, K]⟩ : Shape).rank) ∈ d.lhsNonContracting by rw [h.ln]; simp)]
  simp only [Fin.val_cast]
  have key : ∀ (p p' : ℕ) (hp : p < (⟨2, ![M, N]⟩ : Shape).rank) (hp' : p' < (⟨2, ![M, N]⟩ : Shape).rank), p = p' →
      (j ⟨p, hp⟩).val = (j ⟨p', hp'⟩).val := fun p p' hp hp' e => by subst e; rfl
  exact key _ 0 _ Nat.two_pos (by simp [h.lb, h.ln])

/-- The right operand's column coordinate is the result's column coordinate. -/
theorem rhsIdx_col (h : IsPlain d) (j : (⟨2, ![M, N]⟩ : Shape).Idx) (q : d.contr.Idx) :
    (d.rhsIdx j q 1).val = (j 1).val := by
  unfold DotDims.rhsIdx
  rw [dif_neg (show ¬ (1 : Fin (⟨2, ![K, N]⟩ : Shape).rank) ∈ d.rhsBatch by rw [h.rb]; simp),
    dif_pos (show (1 : Fin (⟨2, ![K, N]⟩ : Shape).rank) ∈ d.rhsNonContracting by rw [h.rn]; simp)]
  simp only [Fin.val_cast]
  have key : ∀ (p p' : ℕ) (hp : p < (⟨2, ![M, N]⟩ : Shape).rank) (hp' : p' < (⟨2, ![M, N]⟩ : Shape).rank), p = p' →
      (j ⟨p, hp⟩).val = (j ⟨p', hp'⟩).val := fun p p' hp hp' e => by subst e; rfl
  exact key _ 1 _ Nat.one_lt_two (by simp [h.lb, h.ln, h.rn])

/-- At contraction coordinate `k` the left operand is read at (i, k). -/
theorem lhsIdx_eq (hr : d.contr.rank = 1) (hs : d.contr.size ⟨0, by omega⟩ = K) (h : IsPlain d) (i : Fin M) (j : Fin N) (k : Fin K) :
    d.lhsIdx (ix2 i j) ((contrEquiv1 d K hr hs).symm k) = ix2 i k :=
  funext fun a => Fin.ext (by
    match a with
    | ⟨0, _⟩ => exact lhsIdx_row h _ _
    | ⟨1, _⟩ => exact (d.lhsIdx_val_of_single h.lc _ _).trans (contrEquiv1_symm_val d K hr hs k))

/-- At contraction coordinate `k` the right operand is read at (k, j). -/
theorem rhsIdx_eq (hr : d.contr.rank = 1) (hs : d.contr.size ⟨0, by omega⟩ = K) (h : IsPlain d) (i : Fin M) (j : Fin N) (k : Fin K) :
    d.rhsIdx (ix2 i j) ((contrEquiv1 d K hr hs).symm k) = ix2 k j :=
  funext fun a => Fin.ext (by
    match a with
    | ⟨0, _⟩ => exact (d.rhsIdx_val_of_single h.rc _ _).trans (contrEquiv1_symm_val d K hr hs k)
    | ⟨1, _⟩ => exact rhsIdx_col h _ _)

/-- The matrix unit accumulating into zero: entry (i, j) is the sum over k of A(i, k) · B(k, j). -/
theorem matmul_zero_apply {φ₁ φ₂ : FTy} (h : IsPlain d) (hr : d.contr.rank = 1) (hs : d.contr.size ⟨0, by omega⟩ = K)
    (prec : Option ContractPrecision)
    (A : FVec Ideal ⟨2, ![M, K]⟩ φ₁) (B : FVec Ideal ⟨2, ![K, N]⟩ φ₂) (i : Fin M) (j : Fin N) :
    FloatOps.matmul d prec A B (constant ⟨2, ![M, N]⟩ .f32 0x00000000#32) (ix2 i j)
      = ∑ k : Fin K, A (ix2 i k) * B (ix2 k j) := by
  rw [Ideal.matmul_constant_zero_apply, ← Equiv.sum_comp (contrEquiv1 d K hr hs).symm]
  exact Finset.sum_congr rfl fun k _ => by rw [lhsIdx_eq hr hs h, rhsIdx_eq hr hs h]

/-- The host's general contraction: entry (i, j) is the same sum, whatever the schedule. -/
theorem dotGeneral_apply {φ₁ φ₂ : FTy} (h : IsPlain d) (hr : d.contr.rank = 1) (hs : d.contr.size ⟨0, by omega⟩ = K)
    (prec : Option ContractPrecision) (sched : HostSchedule)
    (A : FVec Ideal ⟨2, ![M, K]⟩ φ₁) (B : FVec Ideal ⟨2, ![K, N]⟩ φ₂) (i : Fin M) (j : Fin N) :
    FloatOps.dotGeneral d prec sched A B (ix2 i j) = ∑ k : Fin K, A (ix2 i k) * B (ix2 k j) := by
  rw [Ideal.dotGeneral_apply, ← Equiv.sum_comp (contrEquiv1 d K hr hs).symm]
  exact Finset.sum_congr rfl fun k _ => by rw [lhsIdx_eq hr hs h, rhsIdx_eq hr hs h]

end Cert.Lib.PlainProduct

end
-- ==== Proof.KernelBlock.lean ====
/-
  What the kernel body computes for one block of 400 rows, entry by entry, on the extended reals.

  The body loads a 400 × 10000 strip of the adjacency, the whole 10000 × 128 feature matrix and the whole 128 × 128
  transposed weight matrix Wᵀ; narrows the first two to bf16 (the identity on the extended reals); multiplies strip by
  features on the matrix unit into a zero accumulator; multiplies that 400 × 128 result by Wᵀ, again into zero; and
  takes the maximum with 0.0. Each matrix-unit product into zero is the textbook sum over the contracted axis, so
  entry (p, q) of the block is

      max(Σ_k (Σ_l strip(p,l) · feat(l,k)) · Wᵀ(k,q), 0).

  When the strip is rows b·400 … b·400+399 of the adjacency A, the second operand is X and the third reads W
  transposed, that is entry (b·400 + p, q) of the layer with the neighbourhood sum taken first.
-/
import proofs.«109619_g25640954757420_cont_8to1_317_13_alg».proof.Proof.Gen.KernelIdeal.Skeleton
import proofs.«109619_g25640954757420_cont_8to1_317_13_alg».proof.Proof.LibPlainProduct
import proofs.«109619_g25640954757420_cont_8to1_317_13_alg».proof.Proof.GcnLayer
import Idealize.ShloMosaic.Lib.Pipeline.Value

noncomputable section

namespace Cert.KernelBlock

open Idealize.ShloMosaic Idealize.ShloMosaic.ValueIdx Cert.KernelIdeal Cert.KernelIdeal.Gen Cert.GcnLayer
open scoped BigOperators

/-- The strip-by-features contraction is a plain product: the strip's column axis against the features' row axis. -/
theorem plain_strip : Cert.Lib.PlainProduct.IsPlain dot_S400x10000_S10000x128_S400x128_1_0_0_1_n_n :=
  ⟨rfl, rfl, rfl, rfl, rfl, rfl⟩

/-- So is the projection by the transposed weights. -/
theorem plain_proj : Cert.Lib.PlainProduct.IsPlain dot_S400x128_S128x128_S400x128_1_0_0_1_n_n :=
  ⟨rfl, rfl, rfl, rfl, rfl, rfl⟩

/-- Entry (p, q) of the body's stored value, from the three loaded arrays. -/
theorem payload_apply (v0 : Vec Ideal S400x10000 .f32) (v2 : Vec Ideal S10000x128 .f32) (v5 : Vec Ideal S128x128 .f32)
    (p : Fin 400) (q : Fin 128) :
    k0_pay1 (F := Ideal) v0 v2 v5 (ix2 p q)
      = max (∑ k : Fin 128, (∑ l : Fin 10000, v0 (ix2 p l) * v2 (ix2 l k)) * v5 (ix2 k q)) (Ideal.ofBits .f32 0x00000000#32) := by
  unfold k0_pay1
  refine congrArg₂ max ?_ rfl
  refine (Cert.Lib.PlainProduct.matmul_zero_apply plain_proj rfl rfl none _ _ p q).trans ?_
  refine Finset.sum_congr rfl fun k _ => ?_
  refine congrArg₂ (· * ·) ?_ ?_
  · exact Cert.Lib.PlainProduct.matmul_zero_apply plain_strip rfl rfl none _ _ p k
  · exact congrFun (shapeCast_self v5 shapeCasts_S128x128_S128x128) (ix2 k q)

/-- The block of rows b·400 … b·400+399: when the strip holds those rows of A, the features are X and the third operand
    is W transposed, entry (p, q) of the stored value is entry (b·400 + p, q) of the layer. -/
theorem block_apply (X : SX.Idx → EReal) (A : SA.Idx → EReal) (W : SW.Idx → EReal)
    (v0 : Vec Ideal S400x10000 .f32) (v2 : Vec Ideal S10000x128 .f32) (v5 : Vec Ideal S128x128 .f32)
    (p : Fin 400) (q : Fin 128) (r : Fin 10000)
    (h0 : ∀ l : Fin 10000, v0 (ix2 p l) = A (ix2 r l))
    (h2 : ∀ (l : Fin 10000) (k : Fin 128), v2 (ix2 l k) = X (ix2 l k))
    (h5 : ∀ k : Fin 128, v5 (ix2 k q) = W (ix2 q k)) :
    k0_pay1 (F := Ideal) v0 v2 v5 (ix2 p q) = aggFirst X A W r q := by
  rw [payload_apply]
  unfold aggFirst
  refine congrArg₂ max (Finset.sum_congr rfl fun k _ => ?_) rfl
  rw [h5 k]
  refine congrArg (· * W (ix2 q k)) (Finset.sum_congr rfl fun l _ => ?_)
  rw [h0 l, h2 l k]

end Cert.KernelBlock

end
-- ==== Proof.KernelValue.lean ====
/-
  The kernel's result array after the run is the layer, with the neighbourhood sum taken first.

  The grid has 25 points; point t writes back rows 400·t … 400·t+399 of the result. At point t the adjacency window
  holds the same rows of A (its block index on the row axis is the result's, and 0 on the column axis); the feature
  window and the transposed-weight window hold their whole arrays at every point (block index (0, 0)). The
  transposed-weight array is written by the host before the region: Wᵀ(k, q) = W(q, k). So what point t writes back
  is block t of the layer, and since the 25 blocks of 400 rows tile the 10000 rows, the array ends holding the layer.
-/
import proofs.«109619_g25640954757420_cont_8to1_317_13_alg».proof.Proof.Gen.KernelIdeal.Value
import proofs.«109619_g25640954757420_cont_8to1_317_13_alg».proof.Proof.KernelBlock
import proofs.«109619_g25640954757420_cont_8to1_317_13_alg».proof.Proof.GcnLayer
import Idealize.ShloMosaic.Lib.Pipeline.Value
import Idealize.ShloMosaic.Lib.StableHlo.Run

noncomputable section

namespace Cert.KernelValue

open Cert.KernelIdeal Cert.KernelIdeal.Gen Idealize.ShloMosaic Idealize.ShloMosaic.TcCoe Idealize.SL.Sem
open Idealize.ShloMosaic.ValueIdx Cert.GcnLayer
open Idealize.ShloMosaic.Pipeline (Dat)

variable (m : (ℓ : Loc nD τ sig) → Buf (Elt Ideal) ℓ) (ρ : Dev nD → PrngReg)

/-- Every load and the store of the body start at the origin of their buffers. -/
theorem zero_offsets : (![0, 0] : Fin 2 → Nat) = fun _ => 0 := funext fun a => by fin_cases a <;> rfl

/-- The windows' block indices over the 25 grid points: features and transposed weights stay at block (0, 0); the
    adjacency strip follows the result's row block and stays at column block 0; the result's column block is 0. -/
theorem block_indices : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0 ∧ win0_3.index t (0 : Fin 2) ≤ 24 :=
  (by decide +kernel : ∀ t : Fin grid0.N, _)

/-- Every one of the 25 row blocks of the result is some point's. -/
theorem block_onto : ∀ b : Fin 25, ∃ t : Fin cfg0.N, win0_3.index t = ![b.val, 0] :=
  (by decide +kernel : ∀ b : Fin 25, ∃ t : Fin grid0.N, win0_3.index t = ![b.val, 0])

/-- The transposed-weight array as the region finds it: the host's transpose of the weight argument. -/
theorem transposed_weights (c : Dev nD) :
    (V m c main_v0 : S128x128.Idx → EReal)
      = transpose S128x128 [1, 0] (m ((c : Thread nD τ).loc main_arg2)) transposes_S128x128_S128x128_1_0 := by
  dsimp only [V, hostOps0]; after_results

/-- Read at (k, q) it is the weight matrix at (q, k). -/
theorem transposed_weights_apply (c : Dev nD) (k q : Fin 128) :
    (V m c main_v0 : S128x128.Idx → EReal) (ix2 k q) = m ((c : Thread nD τ).loc main_arg2) (ix2 q k) := by
  rw [transposed_weights]
  exact transpose_apply [1, 0] _ transposes_S128x128_S128x128_1_0 (ix2 k q) (ix2 q k)
    (fun b => match b with | ⟨0, _⟩ => rfl | ⟨1, _⟩ => rfl)

/-- What point t writes back is block t of the layer of the argument arrays. -/
theorem flushed_eq (c : Dev nD) (t : Fin cfg0.N) :
    (dats m 0 c).flushed 3 t = ((cfg0.win 3).blk t).view.read (Elt Ideal)
      (layer (m ((c : Thread nD τ).loc main_arg0)) (m ((c : Thread nD τ).loc main_arg1)) (m ((c : Thread nD τ).loc main_arg2))) := by
  rw [Cert.KernelIdeal.Value.flushed3]
  unfold out0_3
  rw [View.canon_unit_zero zero_offsets]
  simp only [View.ld_unit_zero (S := S400x10000) zero_offsets, View.ld_unit_zero (S := S10000x128) zero_offsets,
    View.ld_unit_zero (S := S128x128) zero_offsets]
  obtain ⟨e00, e01, e10, e11, e20, e21, e31, e30⟩ := block_indices t
  funext j
  show k0_pay1 (iblk m c 2 t) (iblk m c 0 t) (iblk m c 1 t) j
    = layer (m ((c : Thread nD τ).loc main_arg0)) (m ((c : Thread nD τ).loc main_arg1)) (m ((c : Thread nD τ).loc main_arg2))
        (((cfg0.win 3).blk t).view.emb j)
  obtain ⟨p, q, rfl⟩ : ∃ (p : Fin 400) (q : Fin 128), j = ix2 p q := ⟨j 0, j 1, eq_ix2 j⟩
  have hp : p.val < 400 := p.isLt
  have hr : win0_3.index t (0 : Fin 2) * 400 + p.val < 10000 := by omega
  refine (Cert.KernelBlock.block_apply (m ((c : Thread nD τ).loc main_arg0)) (m ((c : Thread nD τ).loc main_arg1))
    (m ((c : Thread nD τ).loc main_arg2)) (iblk m c 2 t) (iblk m c 0 t) (iblk m c 1 t) p q
    ⟨win0_3.index t (0 : Fin 2) * 400 + p.val, hr⟩ ?_ ?_ ?_).trans ?_
  · -- the strip's row p is row 400·t + p of the adjacency
    intro l
    show V m c main_arg1 (((cfg0.win 2).blk t).view.emb (ix2 p l)) = _
    rw [V_main_arg1]
    refine congrArg _ (funext fun a => Fin.ext ?_)
    match a with
    | ⟨0, _⟩ => show win0_2.index t (0 : Fin 2) * 400 + 1 * p.val = win0_3.index t (0 : Fin 2) * 400 + p.val; omega
    | ⟨1, _⟩ => show win0_2.index t (1 : Fin 2) * 10000 + 1 * l.val = l.val; omega
  · -- the feature window is the whole feature matrix
    intro l k
    show V m c main_arg0 (((cfg0.win 0).blk t).view.emb (ix2 l k)) = _
    rw [V_main_arg0]
    refine congrArg _ (funext fun a => Fin.ext ?_)
    match a with
    | ⟨0, _⟩ => show win0_0.index t (0 : Fin 2) * 10000 + 1 * l.val = l.val; omega
    | ⟨1, _⟩ => show win0_0.index t (1 : Fin 2) * 128 + 1 * k.val = k.val; omega
  · -- the third window is the whole transposed weight matrix
    intro k
    show V m c main_v0 (((cfg0.win 1).blk t).view.emb (ix2 k q)) = _
    have e : ((cfg0.win 1).blk t).view.emb (ix2 k q) = ix2 k q := by
      funext a; apply Fin.ext
      match a with
      | ⟨0, _⟩ => show win0_1.index t (0 : Fin 2) * 128 + 1 * k.val = k.val; omega
      | ⟨1, _⟩ => show win0_1.index t (1 : Fin 2) * 128 + 1 * q.val = q.val; omega
    rw [e]
    exact transposed_weights_apply m c k q
  · -- and entry (p, q) of the block is entry (400·t + p, q) of the array
    unfold layer
    refine congrArg₂ (aggFirst _ _ _) (Fin.ext ?_) (Fin.ext ?_)
    · show win0_3.index t (0 : Fin 2) * 400 + p.val = win0_3.index t (0 : Fin 2) * 400 + 1 * p.val; omega
    · show q.val = win0_3.index t (1 : Fin 2) * 128 + 1 * q.val; omega

/-- An index of the result is in point t's block iff each coordinate is in the block's range on its axis. -/
theorem mem_block (t : Fin cfg0.N) (i : S10000x128.Idx) :
    i ∈ ((cfg0.win 3).blk t).view.set ↔ ∀ a : Fin 2, win0_3.index t a * S400x128.size a ≤ (i a).val
      ∧ (i a).val < win0_3.index t a * S400x128.size a + S400x128.size a := by
  show i ∈ ((View.whole main_v1).slice (win0_3.rect t)).set ↔ _
  rw [View.set_slice_whole, Rect.mem_set_unit]
  exact Iff.rfl

/-- Row r of the result lies in row block r / 400, which some point writes back: the blocks cover the array. -/
theorem covered (i : S10000x128.Idx) :
    ∃ t : Fin cfg0.N, (cfg0.win 3).flush t = true ∧ i ∈ ((cfg0.win 3).blk t).view.set := by
  have hi0 : (i 0).val < 10000 := (i 0).isLt
  have hi1 : (i 1).val < 128 := (i 1).isLt
  obtain ⟨t, ht⟩ := block_onto ⟨(i 0).val / 400, by omega⟩
  have q0 : win0_3.index t (0 : Fin 2) = (i 0).val / 400 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 400 ≤ (i 0).val ∧ (i 0).val < win0_3.index t (0 : Fin 2) * 400 + 400; omega
  | ⟨1, _⟩ => show win0_3.index t (1 : Fin 2) * 128 ≤ (i 1).val ∧ (i 1).val < win0_3.index t (1 : Fin 2) * 128 + 128; omega

/-- The result array after the run is the layer of the argument arrays. -/
theorem final (c : Dev nD) : (dats m 0 c).arrAt 3 cfg0.N
    = layer (m ((c : Thread nD τ).loc main_arg0)) (m ((c : Thread nD τ).loc main_arg1)) (m ((c : Thread nD τ).loc main_arg2)) :=
  (dats m 0 c).arrAt_eq_of_cover 3 _ (fun t _ => flushed_eq m c t) covered

/-- Every weakly fair execution of the idealized kernel terminates with the result array at the layer and the arguments
    unchanged. -/
theorem run : θ_run defs (onTc (τ := τ) (main (F := Ideal))) ⟨m, fun _ => 0, ρ⟩ fun r => ∀ c : Dev nD,
      r.2.mem ((c : Thread nD τ).loc main_v1)
        = layer (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelValue

end
-- ==== Proof.ReferenceValue.lean ====
/-
  The reference program's result, entry by entry, on the extended reals.

  The reference transposes the weights, multiplies the features by the transposed weights (every node projected), then
  multiplies the adjacency by that (the neighbourhood sum), and takes the maximum with 0.0. Both contractions are plain
  sums over the contracted axis, and a transposed matrix at (k, q) is the matrix at (q, k), so entry (r, q) is

      max(Σ_l A(r,l) · (Σ_k X(l,k) · W(q,k)), 0):

  the layer with the projection taken first.
-/
import proofs.«109619_g25640954757420_cont_8to1_317_13_alg».proof.Proof.Gen.ReferenceIdeal.Read
import proofs.«109619_g25640954757420_cont_8to1_317_13_alg».proof.Proof.GcnLayer

noncomputable section

namespace Cert.ReferenceValue

open Idealize.ShloMosaic Idealize.ShloMosaic.ValueIdx Cert.ReferenceIdeal Cert.ReferenceIdeal.Read Cert.GcnLayer
open scoped BigOperators

/-- The adjacency is read at (r, l) … -/
theorem lidx_agg (r : Fin 10000) (q : Fin 128) (l : Fin 10000) : lidx_main_v2 (ix2 r q) l = ix2 r l :=
  funext fun a => Fin.ext (by match a with | ⟨0, _⟩ => rfl | ⟨1, _⟩ => rfl)

/-- … against the projected features at (l, q). -/
theorem ridx_agg (r : Fin 10000) (q : Fin 128) (l : Fin 10000) : ridx_main_v2 (ix2 r q) l = ix2 l q :=
  funext fun a => Fin.ext (by match a with | ⟨0, _⟩ => rfl | ⟨1, _⟩ => rfl)

/-- The features are read at (l, k) … -/
theorem lidx_proj (l : Fin 10000) (q : Fin 128) (k : Fin 128) : lidx_main_v1 (ix2 l q) k = ix2 l k :=
  funext fun a => Fin.ext (by match a with | ⟨0, _⟩ => rfl | ⟨1, _⟩ => rfl)

/-- … against the transposed weights at (k, q), … -/
theorem ridx_proj (l : Fin 10000) (q : Fin 128) (k : Fin 128) : ridx_main_v1 (ix2 l q) k = ix2 k q :=
  funext fun a => Fin.ext (by match a with | ⟨0, _⟩ => rfl | ⟨1, _⟩ => rfl)

/-- … which are the weights at (q, k). -/
theorem idx_transposed (k q : Fin 128) : idx_main_v0 (ix2 k q) = ix2 q k :=
  funext fun a => Fin.ext (by match a with | ⟨0, _⟩ => rfl | ⟨1, _⟩ => rfl)

/-- The reference's result array is the layer with the projection taken first, at every entry. -/
theorem result_apply (x0 : SX.Idx → EReal) (x1 : SA.Idx → EReal) (x2 : SW.Idx → EReal) (r : Fin 10000) (q : Fin 128) :
    val_main_v3 (F := Ideal) x0 x1 x2 (ix2 r q) = projFirst x0 x1 x2 r q := by
  rw [val_main_v3_apply, val_main_v2_apply, val_main_call0_v0_apply, val_main_call0_cst_apply]
  unfold projFirst
  refine congrArg₂ max (Finset.sum_congr rfl fun l _ => ?_) rfl
  rw [lidx_agg, ridx_agg, val_main_v1_apply]
  refine congrArg (x1 (ix2 r l) * ·) (Finset.sum_congr rfl fun k _ => ?_)
  rw [lidx_proj, ridx_proj, val_main_v0_apply, idx_transposed]

end Cert.ReferenceValue

end
-- ==== Proof.lean ====
/-
  A dense graph-convolution layer, out = relu(A · X · Wᵀ), computed two ways.

  The kernel walks the 10000 rows of the adjacency A in 25 blocks of 400. For each block it forms the neighbourhood
  sums first, (A_block · X), a 400 × 128 matrix, then projects it by the transposed weights Wᵀ and applies the
  rectifier. The reference projects every node first, X · Wᵀ, then takes the neighbourhood sums A · (X · Wᵀ), then the
  rectifier. The casts of A and X to bf16 in the kernel are the identity on the extended reals, and a product on the
  matrix unit into a zero accumulator is the plain sum over the contracted axis, as is the host's contraction.

  So entry (r, q) is max(Σ_k (Σ_l A(r,l)·X(l,k))·W(q,k), 0) on one side and max(Σ_l A(r,l)·(Σ_k X(l,k)·W(q,k)), 0) on
  the other: matrix multiplication is associative. On the extended reals that needs every entry to be a real number
  (distributivity fails at the infinities), which is what the precondition says of the three inputs.

  The modules: GcnLayer (the two bracketings and the law), RealInputs (the precondition read as "every entry is real"),
  KernelBlock (the body's stored value at an entry), KernelValue (the 25 blocks tile the result array),
  ReferenceValue (the reference's result at an entry). No operation of the kernel was rewritten by the idealization,
  so the kernel's idealization is its own text.
-/
import proofs.«109619_g25640954757420_cont_8to1_317_13_alg».proof.Defs
import proofs.«109619_g25640954757420_cont_8to1_317_13_alg».proof.Proof.Gen.Kernel
import proofs.«109619_g25640954757420_cont_8to1_317_13_alg».proof.Proof.Gen.Kernel.Skeleton
import proofs.«109619_g25640954757420_cont_8to1_317_13_alg».proof.Proof.Gen.Kernel.Launch
import proofs.«109619_g25640954757420_cont_8to1_317_13_alg».proof.Proof.Gen.Kernel.Points
import proofs.«109619_g25640954757420_cont_8to1_317_13_alg».proof.Proof.Gen.Kernel.Frame
import proofs.«109619_g25640954757420_cont_8to1_317_13_alg».proof.Proof.Gen.KernelIdeal
import proofs.«109619_g25640954757420_cont_8to1_317_13_alg».proof.Proof.Gen.KernelIdeal.Skeleton
import proofs.«109619_g25640954757420_cont_8to1_317_13_alg».proof.Proof.Gen.KernelIdeal.Launch
import proofs.«109619_g25640954757420_cont_8to1_317_13_alg».proof.Proof.Gen.KernelIdeal.Points
import proofs.«109619_g25640954757420_cont_8to1_317_13_alg».proof.Proof.Gen.KernelIdeal.Frame
import proofs.«109619_g25640954757420_cont_8to1_317_13_alg».proof.Proof.Gen.ReferenceIdeal
import proofs.«109619_g25640954757420_cont_8to1_317_13_alg».proof.Proof.Gen.KernelIdeal.Value
import proofs.«109619_g25640954757420_cont_8to1_317_13_alg».proof.Proof.Gen.ReferenceIdeal.Run
import proofs.«109619_g25640954757420_cont_8to1_317_13_alg».proof.Proof.Gen.ReferenceIdeal.Read
import proofs.«109619_g25640954757420_cont_8to1_317_13_alg».proof.Proof.Gen.Pre_finite_inputs
import proofs.«109619_g25640954757420_cont_8to1_317_13_alg».proof.Proof.GcnLayer
import proofs.«109619_g25640954757420_cont_8to1_317_13_alg».proof.Proof.RealInputs
import proofs.«109619_g25640954757420_cont_8to1_317_13_alg».proof.Proof.KernelValue
import proofs.«109619_g25640954757420_cont_8to1_317_13_alg».proof.Proof.ReferenceValue
import Idealize.ShloMosaic.Adequacy
import Idealize.ShloMosaic.Init

noncomputable section

namespace Cert.Proof

open Idealize.ShloMosaic Idealize.ShloMosaic.TcCoe Idealize.SL.Sem Idealize.ShloMosaic.ValueIdx Cert.GcnLayer

/-- The kernel as printed runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference has no kernel: its run, with the result forgotten, is its frame. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree and are finite, the kernel's result array ends at the layer with the neighbourhood sum
    taken first and the reference's at the layer with the projection taken first; for real entries these are equal. -/
theorem algebraic : Cert.algebraic_KernelIdeal_ReferenceIdeal := by
  intro m ρ m' ρ' hpre hagree
  refine ⟨fun c => layer (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v3_eq]
  obtain ⟨h0, h1, h2⟩ := Cert.RealInputs.real_of_pre _ _ _ (hpre c)
  funext i
  obtain ⟨r, q, rfl⟩ : ∃ (r : Fin 10000) (q : Fin 128), i = ix2 r q := ⟨i 0, i 1, eq_ix2 i⟩
  rw [Cert.ReferenceValue.result_apply]
  exact (aggFirst_eq_projFirst _ _ _ h0 h1 h2 r q).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
